-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S200000 : Shape := ⟨1, ![200000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000 : S_.BroadcastsInDim S200000 (![] : Fin 0 → Fin S200000.rank)
  reducesTo_S200000_S_d0 : S200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S200000 .f32) (main_arg3 : IVec S100000 32) (main_arg4 : FVec F S128x64 .f32) (main_arg5 : FVec F S64 .f32) (main_arg6 : FVec F S64x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000 .f32 := Host.absf main_arg2
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S200000 : Shape := ⟨1, ![200000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S200000x64 : Shape := ⟨2, ![200000, 64]⟩
abbrev S200000x1 : Shape := ⟨2, ![200000, 1]⟩
abbrev S100000x1 : Shape := ⟨2, ![100000, 1]⟩
abbrev S1x64 : Shape := ⟨2, ![1, 64]⟩
abbrev S1600000x128 : Shape := ⟨2, ![1600000, 128]⟩
abbrev S200000x128 : Shape := ⟨2, ![200000, 128]⟩
abbrev S1x128 : Shape := ⟨2, ![1, 128]⟩

abbrev nBuf : Space → Nat
  | .hbm => 136
  | .vmem => 10
  | .smem => 0
  | _ => 0

abbrev hbmTy0_0 (i : Nat) : BufTy := match i % 128 with
  | 0 => ⟨S100000x128, .f32⟩
  | 1 => ⟨S2x1600000, .i32⟩
  | 2 => ⟨S200000, .f32⟩
  | 3 => ⟨S100000, .i32⟩
  | 4 => ⟨S128x64, .f32⟩
  | 5 => ⟨S64, .f32⟩
  | 6 => ⟨S64x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S1600000, .f32⟩
  | 37 => ⟨S_, .f32⟩
  | 38 => ⟨S200000, .f32⟩
  | 39 => ⟨S1600000x1, .i32⟩
  | 40 => ⟨S200000, .f32⟩
  | 41 => ⟨S_, .f32⟩
  | 42 => ⟨S200000, .f32⟩
  | 43 => ⟨S200000, .i1⟩
  | 44 => ⟨S_, .f32⟩
  | 45 => ⟨S200000, .f32⟩
  | 46 => ⟨S200000, .f32⟩
  | 47 => ⟨S_, .f32⟩
  | 48 => ⟨S_, .f32⟩
  | 49 => ⟨S200000, .f32⟩
  | 50 => ⟨S200000, .f32⟩
  | 51 => ⟨S200000, .f32⟩
  | 52 => ⟨S100000x64, .bf16⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .bf16⟩
  | 62 => ⟨S1600000x64, .f32⟩
  | 63 => ⟨S_, .f32⟩
  | 64 => ⟨S200000x64, .f32⟩
  | 65 => ⟨S1600000x1, .i32⟩
  | 66 => ⟨S200000x64, .f32⟩
  | 67 => ⟨S200000x1, .f32⟩
  | 68 => ⟨S200000x64, .f32⟩
  | 69 => ⟨S200000x64, .f32⟩
  | 70 => ⟨S200000x64, .bf16⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .bf16⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S100000x1, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x128, .bf16⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .bf16⟩
  | 104 => ⟨S1600000x128, .f32⟩
  | 105 => ⟨S_, .f32⟩
  | 106 => ⟨S200000x128, .f32⟩
  | 107 => ⟨S1600000x1, .i32⟩
  | 108 => ⟨S200000x128, .f32⟩
  | 109 => ⟨S200000x1, .f32⟩
  | 110 => ⟨S200000x128, .f32⟩
  | 111 => ⟨S200000x128, .f32⟩
  | 112 => ⟨S200000x128, .bf16⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .bf16⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S64x128, .f32⟩
  | .local _ .vmem, ⟨8, _⟩ => ⟨S10000x128, .bf16⟩
  | .local _ .vmem, ⟨9, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_c_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_cst : Ref sig .tc := ⟨.hbm, 91, rfl⟩
abbrev main_call2_v0 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call3_cst : Ref sig .tc := ⟨.hbm, 133, rfl⟩
abbrev main_call3_v0 : Ref sig .tc := ⟨.hbm, 134, rfl⟩
abbrev main_v96 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S200000 : S_.BroadcastsInDim S200000 (![] : Fin 0 → Fin S200000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  packedbf16_S10000x128_S10000x128_0_0 : (Rect.unit (s := S10000x128) ![0, 0] S10000x128.size inb_S10000x128_S10000x128_0_0).PackedRows (EltTy.packing .bf16)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S200000_S1600000x1_S1600000_n_0_n_n_0_1_1_wf : GatherDims.WF S200000 S1600000x1 S1600000 [] [0] [] [0] [] 1 ![1]
  scatter_S100000_S1600000x1_S1600000_n_0_0_1_wf : ScatterDims.WF S100000 S1600000x1 S1600000 [] [0] [0] 1
  scatter_S200000_S1600000x1_S1600000_n_0_0_1_wf : ScatterDims.WF S200000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S200000x64_S1600000x1_S1600000x64_1_0_0_1_wf : ScatterDims.WF S200000x64 S1600000x1 S1600000x64 [1] [0] [0] 1
  gather_S200000x64_S1600000x1_S1600000x64_1_0_n_n_0_1_164_wf : GatherDims.WF S200000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S200000x128_S1600000x1_S1600000x128_1_0_0_1_wf : ScatterDims.WF S200000x128 S1600000x1 S1600000x128 [1] [0] [0] 1
  gather_S200000x128_S1600000x1_S1600000x128_1_0_n_n_0_1_1128_wf : GatherDims.WF S200000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)

variable [Facts₀]

def gather_S200000_S1600000x1_S1600000_n_0_n_n_0_1_1 : GatherDims S200000 S1600000x1 S1600000 where
  offsetDims := []
  collapsedSliceDims := [0]
  operandBatchingDims := []
  startIndicesBatchingDims := []
  startIndexMap := [0]
  indexVectorDim := 1
  sliceSizes := ![1]
  wf := gather_S200000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S200000 : Shape := ⟨1, ![200000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S200000x64 : Shape := ⟨2, ![200000, 64]⟩
abbrev S200000x1 : Shape := ⟨2, ![200000, 1]⟩
abbrev S100000x1 : Shape := ⟨2, ![100000, 1]⟩
abbrev S1x64 : Shape := ⟨2, ![1, 64]⟩
abbrev S1600000x128 : Shape := ⟨2, ![1600000, 128]⟩
abbrev S200000x128 : Shape := ⟨2, ![200000, 128]⟩
abbrev S1x128 : Shape := ⟨2, ![1, 128]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S2x1600000, .i32⟩
  | 2 => ⟨S200000, .f32⟩
  | 3 => ⟨S100000, .i32⟩
  | 4 => ⟨S128x64, .f32⟩
  | 5 => ⟨S64, .f32⟩
  | 6 => ⟨S64x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .f32⟩
  | 46 => ⟨S1600000, .f32⟩
  | 47 => ⟨S_, .f32⟩
  | 48 => ⟨S200000, .f32⟩
  | 49 => ⟨S1600000x1, .i32⟩
  | 50 => ⟨S200000, .f32⟩
  | 51 => ⟨S_, .f32⟩
  | 52 => ⟨S200000, .f32⟩
  | 53 => ⟨S200000, .i1⟩
  | 54 => ⟨S_, .f32⟩
  | 55 => ⟨S200000, .f32⟩
  | 56 => ⟨S200000, .f32⟩
  | 57 => ⟨S_, .f32⟩
  | 58 => ⟨S_, .f32⟩
  | 59 => ⟨S200000, .f32⟩
  | 60 => ⟨S200000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .f32⟩
  | 71 => ⟨S200000x64, .f32⟩
  | 72 => ⟨S1600000x1, .i32⟩
  | 73 => ⟨S200000x64, .f32⟩
  | 74 => ⟨S200000x1, .f32⟩
  | 75 => ⟨S200000x64, .f32⟩
  | 76 => ⟨S200000x64, .f32⟩
  | 77 => ⟨S200000x1, .f32⟩
  | 78 => ⟨S200000x64, .f32⟩
  | 79 => ⟨S200000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S100000x1, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .i1⟩
  | 119 => ⟨S_, .f32⟩
  | 120 => ⟨S100000, .f32⟩
  | 121 => ⟨S100000, .f32⟩
  | 122 => ⟨S_, .f32⟩
  | 123 => ⟨S_, .f32⟩
  | 124 => ⟨S100000, .f32⟩
  | 125 => ⟨S100000, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S_, .f32⟩
  | 8 => ⟨S1600000, .f32⟩
  | 9 => ⟨S_, .f32⟩
  | 10 => ⟨S200000, .f32⟩
  | 11 => ⟨S1600000x1, .i32⟩
  | 12 => ⟨S200000, .f32⟩
  | 13 => ⟨S_, .f32⟩
  | 14 => ⟨S200000, .f32⟩
  | 15 => ⟨S200000, .i1⟩
  | 16 => ⟨S_, .f32⟩
  | 17 => ⟨S200000, .f32⟩
  | 18 => ⟨S200000, .f32⟩
  | 19 => ⟨S_, .f32⟩
  | 20 => ⟨S_, .f32⟩
  | 21 => ⟨S200000, .f32⟩
  | 22 => ⟨S200000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S200000x128, .f32⟩
  | 34 => ⟨S1600000x1, .i32⟩
  | 35 => ⟨S200000x128, .f32⟩
  | 36 => ⟨S200000x1, .f32⟩
  | 37 => ⟨S200000x128, .f32⟩
  | 38 => ⟨S200000x128, .f32⟩
  | 39 => ⟨S200000x1, .f32⟩
  | 40 => ⟨S200000x128, .f32⟩
  | 41 => ⟨S200000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S100000x1, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_cst_10 : Ref sig .tc := ⟨.hbm, 57, rfl⟩
abbrev main_call1_v0 : Ref sig .tc := ⟨.hbm, 58, rfl⟩
abbrev main_call1_v1 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_v37 : Ref sig .tc := ⟨.hbm, 63, rfl⟩
abbrev main_c_12 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_13 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_c_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_20 : Ref sig .tc := ⟨.hbm, 116, rfl⟩
abbrev main_v80 : Ref sig .tc := ⟨.hbm, 117, rfl⟩
abbrev main_v81 : Ref sig .tc := ⟨.hbm, 118, rfl⟩
abbrev main_cst_21 : Ref sig .tc := ⟨.hbm, 119, rfl⟩
abbrev main_v82 : Ref sig .tc := ⟨.hbm, 120, rfl⟩
abbrev main_v83 : Ref sig .tc := ⟨.hbm, 121, rfl⟩
abbrev main_cst_22 : Ref sig .tc := ⟨.hbm, 122, rfl⟩
abbrev main_call3_v0 : Ref sig .tc := ⟨.hbm, 123, rfl⟩
abbrev main_call3_v1 : Ref sig .tc := ⟨.hbm, 124, rfl⟩
abbrev main_v84 : Ref sig .tc := ⟨.hbm, 125, rfl⟩
abbrev main_c_23 : Ref sig .tc := ⟨.hbm, 126, rfl⟩
abbrev main_v85 : Ref sig .tc := ⟨.hbm, 127, rfl⟩
abbrev main_v86 : Ref sig .tc := ⟨.hbm, 128, rfl⟩
abbrev main_c_24 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_25 : Ref sig .tc := ⟨.hbm, 135, rfl⟩
abbrev main_v92 : Ref sig .tc := ⟨.hbm, 136, rfl⟩
abbrev main_cst_26 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_27 : Ref sig .tc := ⟨.hbm, 141, rfl⟩
abbrev main_v96 : Ref sig .tc := ⟨.hbm, 142, rfl⟩
abbrev main_v97 : Ref sig .tc := ⟨.hbm, 143, rfl⟩
abbrev main_cst_28 : Ref sig .tc := ⟨.hbm, 144, rfl⟩
abbrev main_v98 : Ref sig .tc := ⟨.hbm, 145, rfl⟩
abbrev main_v99 : Ref sig .tc := ⟨.hbm, 146, rfl⟩
abbrev main_cst_29 : Ref sig .tc := ⟨.hbm, 147, rfl⟩
abbrev main_call4_v0 : Ref sig .tc := ⟨.hbm, 148, rfl⟩
abbrev main_call4_v1 : Ref sig .tc := ⟨.hbm, 149, rfl⟩
abbrev main_v100 : Ref sig .tc := ⟨.hbm, 150, rfl⟩
abbrev main_c_30 : Ref sig .tc := ⟨.hbm, 151, rfl⟩
abbrev main_v101 : Ref sig .tc := ⟨.hbm, 152, rfl⟩
abbrev main_v102 : Ref sig .tc := ⟨.hbm, 153, rfl⟩
abbrev main_c_31 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_32 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_33 : Ref sig .tc := ⟨.hbm, 170, rfl⟩
abbrev main_v117 : Ref sig .tc := ⟨.hbm, 171, rfl⟩
abbrev main_v118 : Ref sig .tc := ⟨.hbm, 172, rfl⟩
abbrev main_c_34 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_35 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_call5_cst : Ref sig .tc := ⟨.hbm, 189, rfl⟩
abbrev main_call5_v0 : Ref sig .tc := ⟨.hbm, 190, rfl⟩
abbrev main_v133 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S200000 : S_.BroadcastsInDim S200000 (![] : Fin 0 → Fin S200000.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  gather_S200000_S1600000x1_S1600000_n_0_n_n_0_1_1_wf : GatherDims.WF S200000 S1600000x1 S1600000 [] [0] [] [0] [] 1 ![1]
  scatter_S100000_S1600000x1_S1600000_n_0_0_1_wf : ScatterDims.WF S100000 S1600000x1 S1600000 [] [0] [0] 1
  scatter_S200000_S1600000x1_S1600000_n_0_0_1_wf : ScatterDims.WF S200000 S1600000x1 S1600000 [] [0] [0] 1
  gather_S100000x64_S1600000x1_S1600000x64_1_0_n_n_0_1_164_wf : GatherDims.WF S100000x64 S1600000x1 S1600000x64 [1] [0] [] [0] [] 1 ![1, 64]
  scatter_S200000x64_S1600000x1_S1600000x64_1_0_0_1_wf : ScatterDims.WF S200000x64 S1600000x1 S1600000x64 [1] [0] [0] 1
  gather_S200000x64_S1600000x1_S1600000x64_1_0_n_n_0_1_164_wf : GatherDims.WF S200000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S200000x128_S1600000x1_S1600000x128_1_0_0_1_wf : ScatterDims.WF S200000x128 S1600000x1 S1600000x128 [1] [0] [0] 1
  gather_S200000x128_S1600000x1_S1600000x128_1_0_n_n_0_1_1128_wf : GatherDims.WF S200000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S200000_S1600000x1_S1600000_n_0_n_n_0_1_1 : GatherDims S200000 S1600000x1 S1600000 where
  offsetDims := []
  collapsedSliceDims := [0]
  operandBatchingDims := []
  startIndicesBatchingDims := []
  startIndexMap := [0]
  indexVectorDim := 1
  sliceSizes := ![1]
  wf := gather_S200000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named.

  @main is eleven segments: stretches of host operations and two pipelined matrix products. Every weakly fair execution
  terminates, nothing faulting, and at the end each unscoped buffer of a core holds the value obtained by folding the
  segments over the launch memory: a host stretch applies its operations' functions, a pipelined region replaces its
  output array by what its write-backs leave. In particular the result buffer holds that fold's value at the result, and
  the eight argument arrays are as launched. The argument is the launch theorem for a program of several regions applied
  to the segments' records; only the final reading of the thread state differs from the frame statement, which keeps the
  arguments and forgets the result.
-/
import proofs.«100304_j541165879466_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the segments' fold of the
    launch memory read at the result, and the argument arrays end as launched. -/
theorem run_named : θ_run defs (onTc (τ := τ) (main (F := F))) ⟨m, fun _ => 0, ρ⟩ (fun r => ∀ c : Dev nD,
      r.2.mem ((c.tc : Thread nD τ).loc main_v96) = W11 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v96 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Named

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.LibHostIndexingReal.lean ====
/-
  The host's gather and accumulating scatter keep an array of real numbers real, at the ideal instance.

  `stablehlo.gather` reads, at every result index, ONE element of its operand (the start index read signed and clamped so
  that the slice fits), so a gather of an array of real numbers holds real numbers whatever the integer indices are.
  An accumulating float scatter is, at the ideal instance, each operand element plus the finite sum of the update elements
  whose index lands on it (an update landing outside the operand contributes nothing), so it too holds real numbers when
  the operand and the updates do — again whatever the integer indices are. Together: a segment sum of rows gathered from a
  finite table is finite, with no precondition on the edge lists.
-/
import proofs.«100304_j541165879466_2_alg».proof.Proof.LibErealAlgebra
import Idealize.ShloMosaic.PureOps.Contract
import Idealize.ShloMosaic.PureOps.ShapeOps
import Idealize.ShloMosaic.PureOps.Ideal

noncomputable section

namespace ErealAlgebra

open Idealize.ShloMosaic

/-- A gather of real numbers is real, at every result index and for every array of start indices. -/
theorem gather_isReal {s si t : Shape} {w : Nat} (d : GatherDims s si t) (x : s.Idx → EReal) (idx : IVec si w)
    (hx : ∀ i, IsReal (x i)) (j : t.Idx) : IsReal (Host.gather d x idx j) :=
  hx _

/-- An accumulating scatter of real updates into a real operand is real, at every index and for every array of scatter
    indices. -/
theorem scatterAdd_isReal {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- A contraction of real factors — the sum over a finite index type of products — is real: every element of a matrix
    product of real matrices. -/
theorem sum_mul_isReal {κ : Type*} [Fintype κ] (l r : κ → EReal) (hl : ∀ k, IsReal (l k)) (hr : ∀ k, IsReal (r k)) :
    IsReal (∑ k, l k * r k) :=
  IsReal.sum _ _ fun k _ => (hl k).mul (hr k)

end ErealAlgebra

end
-- ==== Proof.LibMatProd.lean ====
/-
  The matrix product as one whole-array function, and the two spellings of it at the ideal instance.

  `matProd x w` is the `[P, Q]` array whose entry `(p, q)` is `∑ k, x (p, k) · w (k, q)`. A host `dot_general` with
  plain dimension numbers (rows × contraction times contraction × columns, no batch axis) IS this function of its two
  operands, and so is a `tpu.matmul` into a zero accumulator. The product of two arrays of real numbers holds real
  numbers, and row `p` of the product depends on row `p` of the left operand only.
-/
import proofs.«100304_j541165879466_2_alg».proof.Proof.LibPlainDot
import proofs.«100304_j541165879466_2_alg».proof.Proof.LibErealAlgebra
import proofs.«100304_j541165879466_2_alg».proof.Proof.LibHostIndexingReal

noncomputable section

namespace MatProd

open Idealize.ShloMosaic Idealize.ShloMosaic.ValueIdx PlainDot ErealAlgebra

variable {P K Q : Nat}

/-- The `[P, K] × [K, Q]` product, entry by entry. -/
def matProd (x : (⟨2, ![P, K]⟩ : Shape).Idx → EReal) (w : (⟨2, ![K, Q]⟩ : Shape).Idx → EReal) :
    (⟨2, ![P, Q]⟩ : Shape).Idx → EReal :=
  fun i => ∑ k : Fin K, x (ix2 (i 0) k) * w (ix2 k (i 1))

theorem matProd_apply (x : (⟨2, ![P, K]⟩ : Shape).Idx → EReal) (w : (⟨2, ![K, Q]⟩ : Shape).Idx → EReal) (p : Fin P) (q : Fin Q) :
    matProd x w (ix2 p q) = ∑ k : Fin K, x (ix2 p k) * w (ix2 k q) := rfl

variable {d : DotDims ⟨2, ![P, K]⟩ ⟨2, ![K, Q]⟩ ⟨2, ![P, Q]⟩}

/-- The host's plain `dot_general` is the product. -/
theorem dotGeneral_eq (h : IsPlain d) {φ₁ φ₂ : FTy} (sched : HostSchedule) (l : FVec Ideal ⟨2, ![P, K]⟩ φ₁)
    (r : FVec Ideal ⟨2, ![K, Q]⟩ φ₂) :
    FloatOps.dotGeneral d none sched l r = matProd l r := by
  funext i
  obtain ⟨p, q, rfl⟩ : ∃ (p : Fin P) (q : Fin Q), i = ix2 p q := ⟨i 0, i 1, eq_ix2 i⟩
  exact dotGeneral_apply h sched l r p q

/-- A product of arrays of real numbers holds real numbers. -/
theorem matProd_isReal (x : (⟨2, ![P, K]⟩ : Shape).Idx → EReal) (w : (⟨2, ![K, Q]⟩ : Shape).Idx → EReal)
    (hx : ∀ i, IsReal (x i)) (hw : ∀ i, IsReal (w i)) (i : (⟨2, ![P, Q]⟩ : Shape).Idx) : IsReal (matProd x w i) :=
  sum_mul_isReal _ _ (fun _ => hx _) (fun _ => hw _)

end MatProd

end
-- ==== Proof.Regions.lean ====
/-
  The two pipelined regions, each a matrix product computed ten row blocks at a time.

  A region stages, at grid point `t`, rows `10000·t … 10000·t + 9999` of its left operand and the whole right operand,
  multiplies them on the matrix unit into a zero accumulator, and writes the product back as rows `10000·t …` of the
  output. Row `r` of a matrix product depends only on row `r` of the left operand, so the block written at point `t` is
  the same rows of the product of the WHOLE arrays; the ten blocks tile the output; hence the output array ends holding
  the whole product. Roundings to the narrower float format are the identity on extended reals.
-/
import proofs.«100304_j541165879466_2_alg».proof.Proof.Gen.KernelIdeal.Frame
import proofs.«100304_j541165879466_2_alg».proof.Proof.LibMatProd
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProd

variable (V : (c : Dev nD) → (b : Ref sig .tc) → Buf (Elt Ideal) ((c : Thread nD τ).loc b))

/-- The arrays the regions read, as arrays of extended reals. -/
abbrev lhs0 (c : Dev nD) : S100000x128.Idx → EReal := V c main_arg0
abbrev rhs0 (c : Dev nD) : S128x64.Idx → EReal := V c main_arg4
abbrev lhs1 (c : Dev nD) : S100000x64.Idx → EReal := V c main_v62
abbrev rhs1 (c : Dev nD) : S64x128.Idx → EReal := V c main_arg6

theorem hz : (![0, 0] : Fin 2 → Nat) = fun _ => 0 := funext fun a => by fin_cases a <;> rfl

/-! ## Region 0: the [100000, 128] × [128, 64] product, ten row blocks of 10000 -/

theorem plain0 : PlainDot.IsPlain (P := 10000) (K := 128) (Q := 64) dot_S10000x128_S128x64_S10000x64_1_0_0_1_n_n := ⟨rfl, rfl, rfl, rfl, rfl, rfl⟩

/-- The body's stored value is the product of the two loaded blocks: the roundings to the narrower format are the
    identity on extended reals, and the matrix unit accumulates into zero. -/
theorem pay0 (x0 : Vec Ideal S10000x128 .f32) (x1 : Vec Ideal S128x64 .f32) :
    k0_pay1 x0 x1 = matProd (P := 10000) (K := 128) (Q := 64) x0 x1 := by
  funext j
  obtain ⟨p, q, rfl⟩ : ∃ (p : Fin 10000) (q : Fin 64), j = ix2 p q := ⟨j 0, j 1, eq_ix2 j⟩
  unfold k0_pay1
  exact PlainDot.matmul_zero_apply plain0 (φ₁ := .bf16) (φ₂ := .bf16) (truncf .bf16 x0 bitsLt_bf16_f32) (truncf .bf16 x1 bitsLt_bf16_f32) p q

/-- The printed index maps over the grid: the left operand's block and the output's block are row block `t`, the right
    operand is one block. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The whole product of the arrays the region finds. -/
def prod0 (c : Dev nD) : S100000x64.Idx → EReal :=
  matProd (P := 100000) (K := 128) (Q := 64) (lhs0 V c) (rhs0 V c)

/-- What point `t` writes back is row block `t` of the whole product: a row of the product reads one row of the left
    operand, and the left block at point `t` is rows `10000·t …` of the array. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay0]
  obtain ⟨e0, e1, e2, e3, e4, e5⟩ := idx_facts0 t
  funext j
  show (∑ k : Fin 128, lhs0 V c (((cfg0.win 0).blk t).view.emb (ix2 (j 0) k)) * rhs0 V c (((cfg0.win 1).blk t).view.emb (ix2 k (j 1))))
    = ∑ k : Fin 128, lhs0 V c (ix2 ((((cfg0.win 2).blk t).view.emb j) 0) k) * rhs0 V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (fun a b : EReal => a * b) (congrArg (lhs0 V c) h0) (congrArg (rhs0 V c) h1)

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- The ten row blocks tile the output: row `r` is in the block of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by rw [hN]; omega
  obtain ⟨e0, e1, e2, e3, e4, e5⟩ := idx_facts0 ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk0]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; omega

/-- The output array after the region: the whole product of the two arrays the region finds. -/
theorem final0 (c : Dev nD) : (dat0 V c).arrAt 2 cfg0.N = prod0 V c :=
  (dat0 V c).arrAt_eq_of_cover 2 (prod0 V c) (fun t _ => flushed0 V c t) (cover0)

/-! ## Region 1: the [100000, 64] × [64, 128] product, ten row blocks of 10000 -/

theorem plain1 : PlainDot.IsPlain (P := 10000) (K := 64) (Q := 128) dot_S10000x64_S64x128_S10000x128_1_0_0_1_n_n := ⟨rfl, rfl, rfl, rfl, rfl, rfl⟩

/-- The body's stored value is the product of the two loaded blocks: the roundings to the narrower format are the
    identity on extended reals, and the matrix unit accumulates into zero. -/
theorem pay1 (x0 : Vec Ideal S10000x64 .f32) (x1 : Vec Ideal S64x128 .f32) :
    k1_pay1 x0 x1 = matProd (P := 10000) (K := 64) (Q := 128) x0 x1 := by
  funext j
  obtain ⟨p, q, rfl⟩ : ∃ (p : Fin 10000) (q : Fin 128), j = ix2 p q := ⟨j 0, j 1, eq_ix2 j⟩
  unfold k1_pay1
  rw [shapeCast_self]
  exact PlainDot.matmul_zero_apply plain1 (φ₁ := .bf16) (φ₂ := .bf16) (truncf .bf16 x0 bitsLt_bf16_f32) (truncf .bf16 x1 bitsLt_bf16_f32) p q

/-- The printed index maps over the grid: the left operand's block and the output's block are row block `t`, the right
    operand is one block. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The whole product of the arrays the region finds. -/
def prod1 (c : Dev nD) : S100000x128.Idx → EReal :=
  matProd (P := 100000) (K := 64) (Q := 128) (lhs1 V c) (rhs1 V c)

/-- What point `t` writes back is row block `t` of the whole product: a row of the product reads one row of the left
    operand, and the left block at point `t` is rows `10000·t …` of the array. -/
theorem flushed1 (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x128) hz]
  rw [pay1]
  obtain ⟨e0, e1, e2, e3, e4, e5⟩ := idx_facts1 t
  funext j
  show (∑ k : Fin 64, lhs1 V c (((cfg1.win 0).blk t).view.emb (ix2 (j 0) k)) * rhs1 V c (((cfg1.win 1).blk t).view.emb (ix2 k (j 1))))
    = ∑ k : Fin 64, lhs1 V c (ix2 ((((cfg1.win 2).blk t).view.emb j) 0) k) * rhs1 V c (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 64 + 1 * k.val = k.val; omega
    | ⟨1, _⟩ => show win1_1.index t (1 : Fin 2) * 128 + 1 * (j 1).val = win1_2.index t (1 : Fin 2) * 128 + 1 * (j 1).val; omega
  exact congrArg₂ (fun a b : EReal => a * b) (congrArg (lhs1 V c) h0) (congrArg (rhs1 V c) h1)

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v63).slice (win1_2.rect t)).set ↔ _
  rw [View.set_slice_whole, Rect.mem_set_unit]
  exact Iff.rfl

/-- The ten row blocks tile the output: row `r` is in the block of point `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  have ht : (i 0).val / 10000 < grid1.N := by rw [hN]; omega
  obtain ⟨e0, e1, e2, e3, e4, e5⟩ := idx_facts1 ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_blk1]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 128 ≤ (i 1).val ∧ (i 1).val < win1_2.index ⟨(i 0).val / 10000, ht⟩ (1 : Fin 2) * 128 + 128; omega

/-- The output array after the region: the whole product of the two arrays the region finds. -/
theorem final1 (c : Dev nD) : (dat1 V c).arrAt 2 cfg1.N = prod1 V c :=
  (dat1 V c).arrAt_eq_of_cover 2 (prod1 V c) (fun t _ => flushed1 V c t) (cover1)

end Cert.KernelIdeal.Regions

end
-- ==== Proof.HostStages.lean ====
/-
  The host operations of the kernel's program, stretch by stretch, as functions of the buffers a stretch finds.

  Before the first matrix product the program splits the incidence list into its node row and its hyperedge row and
  computes, once, the two normalisations: `dinv v = 1 / D v` where the weighted degree `D v` (the sum over the incidences of
  node `v` of the weight of the incidence's hyperedge) is positive, else 0; and `hscale h = binv h · w h` with `binv` the
  same reciprocal of the number of incidences of hyperedge `h`. After each matrix product it runs one convolution layer
  over the product. Each statement below says what one buffer holds after a stretch, for ANY contents `W` at the stretch's
  start: every operation's result is its function of its operands' contents, and a buffer no operation writes is as found.
-/
import proofs.«100304_j541165879466_2_alg».proof.Proof.Gen.KernelIdeal.Frame
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-! ## The functions -/

/-- The node of each incidence: row 0 of the incidence list. -/
def nodeIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
/-- The hyperedge of each incidence: row 1 of the incidence list. -/
def edgeIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
/-- A negative node index counts from the end: `i + 100000` where `i < 0`. -/
def wrapN (i : (⟨S1600000, .i32⟩ : BufTy).Contents (Elt F)) : (⟨S1600000, .i32⟩ : BufTy).Contents (Elt F) :=
  select (cmpi .slt i (broadcastInDim S1600000 ![] bcast_S_S1600000 (constantI S_ 32 0#32))) (addi i (broadcastInDim S1600000 ![] bcast_S_S1600000 (constantI S_ 32 100000#32))) i
/-- A negative hyperedge index counts from the end: `i + 200000` where `i < 0`. -/
def wrapH (i : (⟨S1600000, .i32⟩ : BufTy).Contents (Elt F)) : (⟨S1600000, .i32⟩ : BufTy).Contents (Elt F) :=
  select (cmpi .slt i (broadcastInDim S1600000 ![] bcast_S_S1600000 (constantI S_ 32 0#32))) (addi i (broadcastInDim S1600000 ![] bcast_S_S1600000 (constantI S_ 32 200000#32))) i
/-- The index vector as a column of start indices. -/
def col (i : (⟨S1600000, .i32⟩ : BufTy).Contents (Elt F)) : (⟨S1600000x1, .i32⟩ : BufTy).Contents (Elt F) :=
  broadcastInDim S1600000x1 ![0] bcast_S1600000_S1600000x1_0 i

/-- The weighted degree of each node. -/
def degN (n e : (⟨S1600000, .i32⟩ : BufTy).Contents (Elt F)) (w : (⟨S200000, .f32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (col n)
    (Host.gather gather_S200000_S1600000x1_S1600000_n_0_n_n_0_1_1 w (col (wrapH e)))
/-- Its reciprocal where positive, else zero. -/
def dinv (n e : (⟨S1600000, .i32⟩ : BufTy).Contents (Elt F)) (w : (⟨S200000, .f32⟩ : BufTy).Contents (Elt F)) : (⟨S100000, .f32⟩ : BufTy).Contents (Elt F) :=
  select (cmpf .ogt (degN n e w) (broadcastInDim S100000 ![] bcast_S_S100000 (constant S_ .f32 0x00000000#32)))
    (Host.divf (broadcastInDim S100000 ![] bcast_S_S100000 (constant S_ .f32 0x3F800000#32)) (degN n e w))
    (broadcastInDim S100000 ![] bcast_S_S100000 (id (constant S_ .f32 0x00000000#32)))
/-- The number of incidences of each hyperedge. -/
def degH (e : (⟨S1600000, .i32⟩ : BufTy).Contents (Elt F)) : (⟨S200000, .f32⟩ : BufTy).Contents (Elt F) :=
  Host.scatterAdd scatter_S200000_S1600000x1_S1600000_n_0_0_1 (broadcastInDim S200000 ![] bcast_S_S200000 (constant S_ .f32 0x00000000#32)) (col e)
    (broadcastInDim S1600000 ![] bcast_S_S1600000 (constant S_ .f32 0x3F800000#32))
/-- Its reciprocal where positive, else zero. -/
def binv (e : (⟨S1600000, .i32⟩ : BufTy).Contents (Elt F)) : (⟨S200000, .f32⟩ : BufTy).Contents (Elt F) :=
  select (cmpf .ogt (degH (F := F) e) (broadcastInDim S200000 ![] bcast_S_S200000 (constant S_ .f32 0x00000000#32)))
    (Host.divf (broadcastInDim S200000 ![] bcast_S_S200000 (constant S_ .f32 0x3F800000#32)) (degH e))
    (broadcastInDim S200000 ![] bcast_S_S200000 (id (constant S_ .f32 0x00000000#32)))
/-- The per-hyperedge scale: the reciprocal count times the hyperedge's weight. -/
def hscale (e : (⟨S1600000, .i32⟩ : BufTy).Contents (Elt F)) (w : (⟨S200000, .f32⟩ : BufTy).Contents (Elt F)) : (⟨S200000, .f32⟩ : BufTy).Contents (Elt F) :=
  mulf (binv e) w

/-- One hypergraph convolution on [100000, 64] features `xw` already multiplied by the layer's weight: gather the
    features of each incidence's node, add them into the incidence's hyperedge, scale hyperedge `h` by `hs h`, gather
    each incidence's hyperedge row, add it into the incidence's node, scale node `v` by `dv v`, add the bias and clamp
    below at zero. (Features pass through the narrower float format on the way into each gather.) -/
def layer64 (xw : (⟨S100000x64, .bf16⟩ : BufTy).Contents (Elt F)) (n e : (⟨S1600000, .i32⟩ : BufTy).Contents (Elt F)) (hs : (⟨S200000, .f32⟩ : BufTy).Contents (Elt F)) (dv : (⟨S100000, .f32⟩ : BufTy).Contents (Elt F)) (b : (⟨S64, .f32⟩ : BufTy).Contents (Elt F)) : (⟨S100000x64, .f32⟩ : BufTy).Contents (Elt F) :=
  maximumf
    (addf
      (mulf
        (Host.scatterAdd scatter_S100000x64_S1600000x1_S1600000x64_1_0_0_1
          (broadcastInDim S100000x64 ![] bcast_S_S100000x64 (constant S_ .f32 0x00000000#32))
          (col n)
          (extf .f32
            (Host.gather gather_S200000x64_S1600000x1_S1600000x64_1_0_n_n_0_1_164
              (truncf .bf16
                (mulf
                  (Host.scatterAdd scatter_S200000x64_S1600000x1_S1600000x64_1_0_0_1
                    (broadcastInDim S200000x64 ![] bcast_S_S200000x64 (constant S_ .f32 0x00000000#32))
                    (col e)
                    (extf .f32
                      (Host.gather gather_S100000x64_S1600000x1_S1600000x64_1_0_n_n_0_1_164 xw (col (wrapN n)))
                      bitsLt_bf16_f32))
                  (broadcastInDim S200000x64 ![0, 1] bcast_S200000x1_S200000x64_0_1
                    (broadcastInDim S200000x1 ![0] bcast_S200000_S200000x1_0 hs)))
                bitsLt_bf16_f32)
              (col (wrapH e)))
            bitsLt_bf16_f32))
        (broadcastInDim S100000x64 ![0, 1] bcast_S100000x1_S100000x64_0_1
          (broadcastInDim S100000x1 ![0] bcast_S100000_S100000x1_0 dv)))
      (broadcastInDim S100000x64 ![0, 1] bcast_S1x64_S100000x64_0_1
        (broadcastInDim S1x64 ![1] bcast_S64_S1x64_1 b)))
    (broadcastInDim S100000x64 ![] bcast_S_S100000x64 (constant S_ .f32 0x00000000#32))

/-- One hypergraph convolution on [100000, 128] features `xw` already multiplied by the layer's weight: gather the
    features of each incidence's node, add them into the incidence's hyperedge, scale hyperedge `h` by `hs h`, gather
    each incidence's hyperedge row, add it into the incidence's node, scale node `v` by `dv v`, add the bias and clamp
    below at zero. (Features pass through the narrower float format on the way into each gather.) -/
def layer128 (xw : (⟨S100000x128, .bf16⟩ : BufTy).Contents (Elt F)) (n e : (⟨S1600000, .i32⟩ : BufTy).Contents (Elt F)) (hs : (⟨S200000, .f32⟩ : BufTy).Contents (Elt F)) (dv : (⟨S100000, .f32⟩ : BufTy).Contents (Elt F)) (b : (⟨S128, .f32⟩ : BufTy).Contents (Elt F)) : (⟨S100000x128, .f32⟩ : BufTy).Contents (Elt F) :=
  maximumf
    (addf
      (mulf
        (Host.scatterAdd scatter_S100000x128_S1600000x1_S1600000x128_1_0_0_1
          (broadcastInDim S100000x128 ![] bcast_S_S100000x128 (constant S_ .f32 0x00000000#32))
          (col n)
          (extf .f32
            (Host.gather gather_S200000x128_S1600000x1_S1600000x128_1_0_n_n_0_1_1128
              (truncf .bf16
                (mulf
                  (Host.scatterAdd scatter_S200000x128_S1600000x1_S1600000x128_1_0_0_1
                    (broadcastInDim S200000x128 ![] bcast_S_S200000x128 (constant S_ .f32 0x00000000#32))
                    (col e)
                    (extf .f32
                      (Host.gather gather_S100000x128_S1600000x1_S1600000x128_1_0_n_n_0_1_1128 xw (col (wrapN n)))
                      bitsLt_bf16_f32))
                  (broadcastInDim S200000x128 ![0, 1] bcast_S200000x1_S200000x128_0_1
                    (broadcastInDim S200000x1 ![0] bcast_S200000_S200000x1_0 hs)))
                bitsLt_bf16_f32)
              (col (wrapH e)))
            bitsLt_bf16_f32))
        (broadcastInDim S100000x128 ![0, 1] bcast_S100000x1_S100000x128_0_1
          (broadcastInDim S100000x1 ![0] bcast_S100000_S100000x1_0 dv)))
      (broadcastInDim S100000x128 ![0, 1] bcast_S1x128_S100000x128_0_1
        (broadcastInDim S1x128 ![1] bcast_S128_S1x128_1 b)))
    (broadcastInDim S100000x128 ![] bcast_S_S100000x128 (constant S_ .f32 0x00000000#32))

/-! ## Before the first product -/

theorem pre_v1 (W : Valuation τ sig (Elt F)) : StableHlo.after hostOps0_4 (StableHlo.after hostOps0_3 (StableHlo.after hostOps0_2 (StableHlo.after hostOps0_1 (StableHlo.after hostOps0 W)))) (Proc.devRef .tc main_v1) = nodeIdx (W (Proc.devRef .tc main_arg1)) := by
  simp only [hostOps0, hostOps0_1, hostOps0_2, hostOps0_3, hostOps0_4]
  after_results_simp
  rfl
theorem pre_v3 (W : Valuation τ sig (Elt F)) : StableHlo.after hostOps0_4 (StableHlo.after hostOps0_3 (StableHlo.after hostOps0_2 (StableHlo.after hostOps0_1 (StableHlo.after hostOps0 W)))) (Proc.devRef .tc main_v3) = edgeIdx (W (Proc.devRef .tc main_arg1)) := by
  simp only [hostOps0, hostOps0_1, hostOps0_2, hostOps0_3, hostOps0_4]
  after_results_simp
  rfl
theorem pre_v18 (W : Valuation τ sig (Elt F)) : StableHlo.after hostOps0_4 (StableHlo.after hostOps0_3 (StableHlo.after hostOps0_2 (StableHlo.after hostOps0_1 (StableHlo.after hostOps0 W)))) (Proc.devRef .tc main_v18) = dinv (nodeIdx (W (Proc.devRef .tc main_arg1))) (edgeIdx (W (Proc.devRef .tc main_arg1))) (W (Proc.devRef .tc main_arg2)) := by
  simp only [hostOps0, hostOps0_1, hostOps0_2, hostOps0_3, hostOps0_4]
  after_results_simp
  rfl
theorem pre_v28 (W : Valuation τ sig (Elt F)) : StableHlo.after hostOps0_4 (StableHlo.after hostOps0_3 (StableHlo.after hostOps0_2 (StableHlo.after hostOps0_1 (StableHlo.after hostOps0 W)))) (Proc.devRef .tc main_v28) = hscale (edgeIdx (W (Proc.devRef .tc main_arg1))) (W (Proc.devRef .tc main_arg2)) := by
  simp only [hostOps0, hostOps0_1, hostOps0_2, hostOps0_3, hostOps0_4]
  after_results_simp
  rfl
theorem pre_arg0 (W : Valuation τ sig (Elt F)) : StableHlo.after hostOps0_4 (StableHlo.after hostOps0_3 (StableHlo.after hostOps0_2 (StableHlo.after hostOps0_1 (StableHlo.after hostOps0 W)))) (Proc.devRef .tc main_arg0) = W (Proc.devRef .tc main_arg0) := by
  simp only [hostOps0, hostOps0_1, hostOps0_2, hostOps0_3, hostOps0_4]
  after_results_simp
theorem pre_arg4 (W : Valuation τ sig (Elt F)) : StableHlo.after hostOps0_4 (StableHlo.after hostOps0_3 (StableHlo.after hostOps0_2 (StableHlo.after hostOps0_1 (StableHlo.after hostOps0 W)))) (Proc.devRef .tc main_arg4) = W (Proc.devRef .tc main_arg4) := by
  simp only [hostOps0, hostOps0_1, hostOps0_2, hostOps0_3, hostOps0_4]
  after_results_simp
theorem pre_arg5 (W : Valuation τ sig (Elt F)) : StableHlo.after hostOps0_4 (StableHlo.after hostOps0_3 (StableHlo.after hostOps0_2 (StableHlo.after hostOps0_1 (StableHlo.after hostOps0 W)))) (Proc.devRef .tc main_arg5) = W (Proc.devRef .tc main_arg5) := by
  simp only [hostOps0, hostOps0_1, hostOps0_2, hostOps0_3, hostOps0_4]
  after_results_simp
theorem pre_arg6 (W : Valuation τ sig (Elt F)) : StableHlo.after hostOps0_4 (StableHlo.after hostOps0_3 (StableHlo.after hostOps0_2 (StableHlo.after hostOps0_1 (StableHlo.after hostOps0 W)))) (Proc.devRef .tc main_arg6) = W (Proc.devRef .tc main_arg6) := by
  simp only [hostOps0, hostOps0_1, hostOps0_2, hostOps0_3, hostOps0_4]
  after_results_simp
theorem pre_arg7 (W : Valuation τ sig (Elt F)) : StableHlo.after hostOps0_4 (StableHlo.after hostOps0_3 (StableHlo.after hostOps0_2 (StableHlo.after hostOps0_1 (StableHlo.after hostOps0 W)))) (Proc.devRef .tc main_arg7) = W (Proc.devRef .tc main_arg7) := by
  simp only [hostOps0, hostOps0_1, hostOps0_2, hostOps0_3, hostOps0_4]
  after_results_simp

/-! ## Between the products: the first layer -/

theorem mid_v62 (W : Valuation τ sig (Elt F)) : StableHlo.after hostOps1_1 (StableHlo.after hostOps1 W) (Proc.devRef .tc main_v62)
    = layer64 (W (Proc.devRef .tc main_v29)) (W (Proc.devRef .tc main_v1)) (W (Proc.devRef .tc main_v3)) (W (Proc.devRef .tc main_v28)) (W (Proc.devRef .tc main_v18)) (W (Proc.devRef .tc main_arg5)) := by
  simp only [hostOps1, hostOps1_1]
  after_results_simp
  rfl
theorem mid_v1 (W : Valuation τ sig (Elt F)) : StableHlo.after hostOps1_1 (StableHlo.after hostOps1 W) (Proc.devRef .tc main_v1) = W (Proc.devRef .tc main_v1) := by
  simp only [hostOps1, hostOps1_1]
  after_results_simp
theorem mid_v3 (W : Valuation τ sig (Elt F)) : StableHlo.after hostOps1_1 (StableHlo.after hostOps1 W) (Proc.devRef .tc main_v3) = W (Proc.devRef .tc main_v3) := by
  simp only [hostOps1, hostOps1_1]
  after_results_simp
theorem mid_v18 (W : Valuation τ sig (Elt F)) : StableHlo.after hostOps1_1 (StableHlo.after hostOps1 W) (Proc.devRef .tc main_v18) = W (Proc.devRef .tc main_v18) := by
  simp only [hostOps1, hostOps1_1]
  after_results_simp
theorem mid_v28 (W : Valuation τ sig (Elt F)) : StableHlo.after hostOps1_1 (StableHlo.after hostOps1 W) (Proc.devRef .tc main_v28) = W (Proc.devRef .tc main_v28) := by
  simp only [hostOps1, hostOps1_1]
  after_results_simp
theorem mid_arg6 (W : Valuation τ sig (Elt F)) : StableHlo.after hostOps1_1 (StableHlo.after hostOps1 W) (Proc.devRef .tc main_arg6) = W (Proc.devRef .tc main_arg6) := by
  simp only [hostOps1, hostOps1_1]
  after_results_simp
theorem mid_arg7 (W : Valuation τ sig (Elt F)) : StableHlo.after hostOps1_1 (StableHlo.after hostOps1 W) (Proc.devRef .tc main_arg7) = W (Proc.devRef .tc main_arg7) := by
  simp only [hostOps1, hostOps1_1]
  after_results_simp

/-! ## After the second product: the second layer -/

theorem tail_v96 (W : Valuation τ sig (Elt F)) : StableHlo.after hostOps2_1 (StableHlo.after hostOps2 W) (Proc.devRef .tc main_v96)
    = layer128 (W (Proc.devRef .tc main_v63)) (W (Proc.devRef .tc main_v1)) (W (Proc.devRef .tc main_v3)) (W (Proc.devRef .tc main_v28)) (W (Proc.devRef .tc main_v18)) (W (Proc.devRef .tc main_arg7)) := by
  simp only [hostOps2, hostOps2_1]
  after_results_simp
  rfl

end Cert.KernelIdeal.HostVal

end
-- ==== Proof.KernelValue.lean ====
/-
  The idealized kernel's result as one function of its arguments.

  Walking the segments from the launch: the stretch before the first product leaves the node row, the hyperedge row and
  the two normalisations of the incidence list and the weights; the first region leaves `x · W1`; the next stretch runs a
  convolution layer on it; the second region multiplies that layer's output by `W2`; the last stretch runs the second
  layer. A region changes no buffer but its output, and a stretch changes no buffer it does not write, so the node row,
  the hyperedge row, the normalisations, the weights and the biases reach every later segment as first computed.
-/
import proofs.«100304_j541165879466_2_alg».proof.Proof.Regions
import proofs.«100304_j541165879466_2_alg».proof.Proof.HostStages

set_option maxRecDepth 16384

noncomputable section

namespace Cert.KernelIdeal.KVal

open Cert.KernelIdeal Cert.KernelIdeal.Gen Cert.KernelIdeal.HostVal Cert.KernelIdeal.Regions
open Idealize.ShloMosaic Idealize.ShloMosaic.TcCoe Idealize.SL.Sem Idealize.ShloMosaic.StableHlo
open MatProd

variable (m : (ℓ : Loc nD τ sig) → Buf (Elt Ideal) ℓ) (ρ : Dev nD → PrngReg) (c : Dev nD)

/-! ## At the first region's entry -/

theorem a_v1 : W5 m ρ c (Proc.devRef .tc main_v1) = nodeIdx (m ((c : Thread nD τ).loc main_arg1)) := pre_v1 (W0 m ρ c)
theorem a_v3 : W5 m ρ c (Proc.devRef .tc main_v3) = edgeIdx (m ((c : Thread nD τ).loc main_arg1)) := pre_v3 (W0 m ρ c)
theorem a_v18 : W5 m ρ c (Proc.devRef .tc main_v18) = dinv (nodeIdx (m ((c : Thread nD τ).loc main_arg1))) (edgeIdx (m ((c : Thread nD τ).loc main_arg1))) (m ((c : Thread nD τ).loc main_arg2)) := pre_v18 (W0 m ρ c)
theorem a_v28 : W5 m ρ c (Proc.devRef .tc main_v28) = hscale (edgeIdx (m ((c : Thread nD τ).loc main_arg1))) (m ((c : Thread nD τ).loc main_arg2)) := pre_v28 (W0 m ρ c)
theorem a_arg0 : W5 m ρ c (Proc.devRef .tc main_arg0) = (m ((c : Thread nD τ).loc main_arg0)) := pre_arg0 (W0 m ρ c)
theorem a_arg4 : W5 m ρ c (Proc.devRef .tc main_arg4) = (m ((c : Thread nD τ).loc main_arg4)) := pre_arg4 (W0 m ρ c)
theorem a_arg5 : W5 m ρ c (Proc.devRef .tc main_arg5) = (m ((c : Thread nD τ).loc main_arg5)) := pre_arg5 (W0 m ρ c)
theorem a_arg6 : W5 m ρ c (Proc.devRef .tc main_arg6) = (m ((c : Thread nD τ).loc main_arg6)) := pre_arg6 (W0 m ρ c)
theorem a_arg7 : W5 m ρ c (Proc.devRef .tc main_arg7) = (m ((c : Thread nD τ).loc main_arg7)) := pre_arg7 (W0 m ρ c)

/-! ## At the first region's exit -/

theorem b_v29 : W6 m ρ c (Proc.devRef .tc main_v29)
    = matProd (P := 100000) (K := 128) (Q := 64) (W5 m ρ c (Proc.devRef .tc main_arg0)) (W5 m ρ c (Proc.devRef .tc main_arg4)) :=
  (W6_arr m ρ c 2).trans (final0 (V5 m ρ) c)
theorem b_v1 : W6 m ρ c (Proc.devRef .tc main_v1) = W5 m ρ c (Proc.devRef .tc main_v1) := W6_of_ne m ρ c main_v1 (by decide)
theorem b_v3 : W6 m ρ c (Proc.devRef .tc main_v3) = W5 m ρ c (Proc.devRef .tc main_v3) := W6_of_ne m ρ c main_v3 (by decide)
theorem b_v18 : W6 m ρ c (Proc.devRef .tc main_v18) = W5 m ρ c (Proc.devRef .tc main_v18) := W6_of_ne m ρ c main_v18 (by decide)
theorem b_v28 : W6 m ρ c (Proc.devRef .tc main_v28) = W5 m ρ c (Proc.devRef .tc main_v28) := W6_of_ne m ρ c main_v28 (by decide)
theorem b_arg5 : W6 m ρ c (Proc.devRef .tc main_arg5) = W5 m ρ c (Proc.devRef .tc main_arg5) := W6_of_ne m ρ c main_arg5 (by decide)
theorem b_arg6 : W6 m ρ c (Proc.devRef .tc main_arg6) = W5 m ρ c (Proc.devRef .tc main_arg6) := W6_of_ne m ρ c main_arg6 (by decide)
theorem b_arg7 : W6 m ρ c (Proc.devRef .tc main_arg7) = W5 m ρ c (Proc.devRef .tc main_arg7) := W6_of_ne m ρ c main_arg7 (by decide)

/-! ## At the second region's entry -/

theorem c_v62 : W8 m ρ c (Proc.devRef .tc main_v62)
    = layer64 (W6 m ρ c (Proc.devRef .tc main_v29)) (W6 m ρ c (Proc.devRef .tc main_v1)) (W6 m ρ c (Proc.devRef .tc main_v3)) (W6 m ρ c (Proc.devRef .tc main_v28)) (W6 m ρ c (Proc.devRef .tc main_v18)) (W6 m ρ c (Proc.devRef .tc main_arg5)) :=
  mid_v62 (W6 m ρ c)
theorem c_v1 : W8 m ρ c (Proc.devRef .tc main_v1) = W6 m ρ c (Proc.devRef .tc main_v1) := mid_v1 (W6 m ρ c)
theorem c_v3 : W8 m ρ c (Proc.devRef .tc main_v3) = W6 m ρ c (Proc.devRef .tc main_v3) := mid_v3 (W6 m ρ c)
theorem c_v18 : W8 m ρ c (Proc.devRef .tc main_v18) = W6 m ρ c (Proc.devRef .tc main_v18) := mid_v18 (W6 m ρ c)
theorem c_v28 : W8 m ρ c (Proc.devRef .tc main_v28) = W6 m ρ c (Proc.devRef .tc main_v28) := mid_v28 (W6 m ρ c)
theorem c_arg6 : W8 m ρ c (Proc.devRef .tc main_arg6) = W6 m ρ c (Proc.devRef .tc main_arg6) := mid_arg6 (W6 m ρ c)
theorem c_arg7 : W8 m ρ c (Proc.devRef .tc main_arg7) = W6 m ρ c (Proc.devRef .tc main_arg7) := mid_arg7 (W6 m ρ c)

/-! ## At the second region's exit -/

theorem d_v63 : W9 m ρ c (Proc.devRef .tc main_v63)
    = matProd (P := 100000) (K := 64) (Q := 128) (W8 m ρ c (Proc.devRef .tc main_v62)) (W8 m ρ c (Proc.devRef .tc main_arg6)) :=
  (W9_arr m ρ c 2).trans (final1 (V8 m ρ) c)
theorem d_v1 : W9 m ρ c (Proc.devRef .tc main_v1) = W8 m ρ c (Proc.devRef .tc main_v1) := W9_of_ne m ρ c main_v1 (by decide)
theorem d_v3 : W9 m ρ c (Proc.devRef .tc main_v3) = W8 m ρ c (Proc.devRef .tc main_v3) := W9_of_ne m ρ c main_v3 (by decide)
theorem d_v18 : W9 m ρ c (Proc.devRef .tc main_v18) = W8 m ρ c (Proc.devRef .tc main_v18) := W9_of_ne m ρ c main_v18 (by decide)
theorem d_v28 : W9 m ρ c (Proc.devRef .tc main_v28) = W8 m ρ c (Proc.devRef .tc main_v28) := W9_of_ne m ρ c main_v28 (by decide)
theorem d_arg7 : W9 m ρ c (Proc.devRef .tc main_arg7) = W8 m ρ c (Proc.devRef .tc main_arg7) := W9_of_ne m ρ c main_arg7 (by decide)

/-! ## The result -/

/-- The kernel's result of its seven live arguments: two layers, each over a matrix product, sharing the node row, the
    hyperedge row and the two normalisations. -/
def whole (x : S100000x128.Idx → EReal) (ei : (⟨S2x1600000, .i32⟩ : BufTy).Contents (Elt Ideal)) (w : S200000.Idx → EReal)
    (w1 : S128x64.Idx → EReal) (b1 : S64.Idx → EReal) (w2 : S64x128.Idx → EReal) (b2 : S128.Idx → EReal) : S100000x128.Idx → EReal :=
  layer128 (F := Ideal)
    (matProd (P := 100000) (K := 64) (Q := 128)
      (layer64 (F := Ideal) (matProd (P := 100000) (K := 128) (Q := 64) x w1)
        (nodeIdx ei) (edgeIdx ei) (hscale (edgeIdx ei) w) (dinv (nodeIdx ei) (edgeIdx ei) w) b1)
      w2)
    (nodeIdx ei) (edgeIdx ei) (hscale (edgeIdx ei) w) (dinv (nodeIdx ei) (edgeIdx ei) w) b2

theorem result : W11 m ρ c (Proc.devRef .tc main_v96)
    = whole (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (tail_v96 (W9 m ρ c)).trans ?_
  rw [d_v63 m ρ c, d_v1 m ρ c, d_v3 m ρ c, d_v28 m ρ c, d_v18 m ρ c, d_arg7 m ρ c]
  rw [c_v62 m ρ c, c_v1 m ρ c, c_v3 m ρ c, c_v28 m ρ c, c_v18 m ρ c, c_arg6 m ρ c, c_arg7 m ρ c]
  rw [b_v29 m ρ c, b_v1 m ρ c, b_v3 m ρ c, b_v28 m ρ c, b_v18 m ρ c, b_arg5 m ρ c, b_arg6 m ρ c, b_arg7 m ρ c]
  rw [a_v1 m ρ c, a_v3 m ρ c, a_v28 m ρ c, a_v18 m ρ c, a_arg0 m ρ c, a_arg4 m ρ c, a_arg5 m ρ c, a_arg6 m ρ c, a_arg7 m ρ c]
  rfl

end Cert.KernelIdeal.KVal

end
-- ==== Proof.RefValue.lean ====
/-
  The reference program's result as a composition of a few named functions of its arguments.

  The reference splits the incidence list into its node row and its hyperedge row, and runs two convolution layers. Each
  layer multiplies the features by the layer's weight matrix, recomputes the two normalisations (the reciprocal weighted
  degree of each node, the reciprocal incidence count of each hyperedge: the same functions of the incidence list and the
  hyperedge weights both times), aggregates node rows into hyperedges and back into nodes, and adds the bias; a clamp at
  zero follows each layer.
-/
import proofs.«100304_j541165879466_2_alg».proof.Proof.RefRun

set_option maxRecDepth 16384

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The node of each incidence: row 0 of the incidence list. -/
def nodeIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
/-- The hyperedge of each incidence: row 1 of the incidence list. -/
def edgeIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
/-- A negative node index counts from the end: `i + 100000` where `i < 0`. -/
def wrapN (i : (⟨S1600000, .i32⟩ : BufTy).Contents (Elt F)) : (⟨S1600000, .i32⟩ : BufTy).Contents (Elt F) :=
  select (cmpi .slt i (broadcastInDim S1600000 ![] bcast_S_S1600000 (constantI S_ 32 0#32))) (addi i (broadcastInDim S1600000 ![] bcast_S_S1600000 (constantI S_ 32 100000#32))) i
/-- A negative hyperedge index counts from the end: `i + 200000` where `i < 0`. -/
def wrapH (i : (⟨S1600000, .i32⟩ : BufTy).Contents (Elt F)) : (⟨S1600000, .i32⟩ : BufTy).Contents (Elt F) :=
  select (cmpi .slt i (broadcastInDim S1600000 ![] bcast_S_S1600000 (constantI S_ 32 0#32))) (addi i (broadcastInDim S1600000 ![] bcast_S_S1600000 (constantI S_ 32 200000#32))) i
/-- The index vector as a column of start indices. -/
def col (i : (⟨S1600000, .i32⟩ : BufTy).Contents (Elt F)) : (⟨S1600000x1, .i32⟩ : BufTy).Contents (Elt F) :=
  broadcastInDim S1600000x1 ![0] bcast_S1600000_S1600000x1_0 i

/-- The weighted degree of each node. -/
def degN (n e : (⟨S1600000, .i32⟩ : BufTy).Contents (Elt F)) (w : (⟨S200000, .f32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (col n)
    (Host.gather gather_S200000_S1600000x1_S1600000_n_0_n_n_0_1_1 w (col (wrapH e)))
/-- Its reciprocal where positive, else zero. -/
def dinv (n e : (⟨S1600000, .i32⟩ : BufTy).Contents (Elt F)) (w : (⟨S200000, .f32⟩ : BufTy).Contents (Elt F)) : (⟨S100000, .f32⟩ : BufTy).Contents (Elt F) :=
  select (cmpf .ogt (degN n e w) (broadcastInDim S100000 ![] bcast_S_S100000 (constant S_ .f32 0x00000000#32)))
    (Host.divf (broadcastInDim S100000 ![] bcast_S_S100000 (constant S_ .f32 0x3F800000#32)) (degN n e w))
    (broadcastInDim S100000 ![] bcast_S_S100000 (id (constant S_ .f32 0x00000000#32)))
/-- The number of incidences of each hyperedge. -/
def degH (e : (⟨S1600000, .i32⟩ : BufTy).Contents (Elt F)) : (⟨S200000, .f32⟩ : BufTy).Contents (Elt F) :=
  Host.scatterAdd scatter_S200000_S1600000x1_S1600000_n_0_0_1 (broadcastInDim S200000 ![] bcast_S_S200000 (constant S_ .f32 0x00000000#32)) (col e)
    (broadcastInDim S1600000 ![] bcast_S_S1600000 (constant S_ .f32 0x3F800000#32))
/-- Its reciprocal where positive, else zero. -/
def binv (e : (⟨S1600000, .i32⟩ : BufTy).Contents (Elt F)) : (⟨S200000, .f32⟩ : BufTy).Contents (Elt F) :=
  select (cmpf .ogt (degH (F := F) e) (broadcastInDim S200000 ![] bcast_S_S200000 (constant S_ .f32 0x00000000#32)))
    (Host.divf (broadcastInDim S200000 ![] bcast_S_S200000 (constant S_ .f32 0x3F800000#32)) (degH e))
    (broadcastInDim S200000 ![] bcast_S_S200000 (id (constant S_ .f32 0x00000000#32)))

/-- One hypergraph convolution on [100000, 64] features `xw` already multiplied by the layer's weight: gather the
    features of each incidence's node, add them into the incidence's hyperedge, scale hyperedge `h` by `bi h` and then by
    its weight `w h`, gather each incidence's hyperedge row, add it into the incidence's node, scale node `v` by `dv v`,
    add the bias and clamp below at zero. -/
def layer64 (xw : (⟨S100000x64, .f32⟩ : BufTy).Contents (Elt F)) (n e : (⟨S1600000, .i32⟩ : BufTy).Contents (Elt F)) (bi w : (⟨S200000, .f32⟩ : BufTy).Contents (Elt F)) (dv : (⟨S100000, .f32⟩ : BufTy).Contents (Elt F)) (b : (⟨S64, .f32⟩ : BufTy).Contents (Elt F)) : (⟨S100000x64, .f32⟩ : BufTy).Contents (Elt F) :=
  maximumf
    (addf
      (mulf
        (Host.scatterAdd scatter_S100000x64_S1600000x1_S1600000x64_1_0_0_1
          (broadcastInDim S100000x64 ![] bcast_S_S100000x64 (constant S_ .f32 0x00000000#32))
          (col n)
          (Host.gather gather_S200000x64_S1600000x1_S1600000x64_1_0_n_n_0_1_164
            (mulf
              (mulf
                (Host.scatterAdd scatter_S200000x64_S1600000x1_S1600000x64_1_0_0_1
                  (broadcastInDim S200000x64 ![] bcast_S_S200000x64 (constant S_ .f32 0x00000000#32))
                  (col e)
                  (Host.gather gather_S100000x64_S1600000x1_S1600000x64_1_0_n_n_0_1_164 xw (col (wrapN n))))
                (broadcastInDim S200000x64 ![0, 1] bcast_S200000x1_S200000x64_0_1
                  (broadcastInDim S200000x1 ![0] bcast_S200000_S200000x1_0 bi)))
              (broadcastInDim S200000x64 ![0, 1] bcast_S200000x1_S200000x64_0_1
                (broadcastInDim S200000x1 ![0] bcast_S200000_S200000x1_0 w)))
            (col (wrapH e))))
        (broadcastInDim S100000x64 ![0, 1] bcast_S100000x1_S100000x64_0_1
          (broadcastInDim S100000x1 ![0] bcast_S100000_S100000x1_0 dv)))
      (broadcastInDim S100000x64 ![0, 1] bcast_S1x64_S100000x64_0_1
        (broadcastInDim S1x64 ![1] bcast_S64_S1x64_1 b)))
    (broadcastInDim S100000x64 ![] bcast_S_S100000x64 (constant S_ .f32 0x00000000#32))

/-- One hypergraph convolution on [100000, 128] features `xw` already multiplied by the layer's weight: gather the
    features of each incidence's node, add them into the incidence's hyperedge, scale hyperedge `h` by `bi h` and then by
    its weight `w h`, gather each incidence's hyperedge row, add it into the incidence's node, scale node `v` by `dv v`,
    add the bias and clamp below at zero. -/
def layer128 (xw : (⟨S100000x128, .f32⟩ : BufTy).Contents (Elt F)) (n e : (⟨S1600000, .i32⟩ : BufTy).Contents (Elt F)) (bi w : (⟨S200000, .f32⟩ : BufTy).Contents (Elt F)) (dv : (⟨S100000, .f32⟩ : BufTy).Contents (Elt F)) (b : (⟨S128, .f32⟩ : BufTy).Contents (Elt F)) : (⟨S100000x128, .f32⟩ : BufTy).Contents (Elt F) :=
  maximumf
    (addf
      (mulf
        (Host.scatterAdd scatter_S100000x128_S1600000x1_S1600000x128_1_0_0_1
          (broadcastInDim S100000x128 ![] bcast_S_S100000x128 (constant S_ .f32 0x00000000#32))
          (col n)
          (Host.gather gather_S200000x128_S1600000x1_S1600000x128_1_0_n_n_0_1_1128
            (mulf
              (mulf
                (Host.scatterAdd scatter_S200000x128_S1600000x1_S1600000x128_1_0_0_1
                  (broadcastInDim S200000x128 ![] bcast_S_S200000x128 (constant S_ .f32 0x00000000#32))
                  (col e)
                  (Host.gather gather_S100000x128_S1600000x1_S1600000x128_1_0_n_n_0_1_1128 xw (col (wrapN n))))
                (broadcastInDim S200000x128 ![0, 1] bcast_S200000x1_S200000x128_0_1
                  (broadcastInDim S200000x1 ![0] bcast_S200000_S200000x1_0 bi)))
              (broadcastInDim S200000x128 ![0, 1] bcast_S200000x1_S200000x128_0_1
                (broadcastInDim S200000x1 ![0] bcast_S200000_S200000x1_0 w)))
            (col (wrapH e))))
        (broadcastInDim S100000x128 ![0, 1] bcast_S100000x1_S100000x128_0_1
          (broadcastInDim S100000x1 ![0] bcast_S100000_S100000x1_0 dv)))
      (broadcastInDim S100000x128 ![0, 1] bcast_S1x128_S100000x128_0_1
        (broadcastInDim S1x128 ![1] bcast_S128_S1x128_1 b)))
    (broadcastInDim S100000x128 ![] bcast_S_S100000x128 (constant S_ .f32 0x00000000#32))

/-- The reference's result of its seven live arguments. -/
def whole (x : (⟨S100000x128, .f32⟩ : BufTy).Contents (Elt F)) (ei : (⟨S2x1600000, .i32⟩ : BufTy).Contents (Elt F)) (w : (⟨S200000, .f32⟩ : BufTy).Contents (Elt F)) (w1 : (⟨S128x64, .f32⟩ : BufTy).Contents (Elt F)) (b1 : (⟨S64, .f32⟩ : BufTy).Contents (Elt F)) (w2 : (⟨S64x128, .f32⟩ : BufTy).Contents (Elt F)) (b2 : (⟨S128, .f32⟩ : BufTy).Contents (Elt F)) : (⟨S100000x128, .f32⟩ : BufTy).Contents (Elt F) :=
  layer128
    (Host.dotGeneral dot_S100000x64_S64x128_S100000x128_1_0_0_1_n_n none
      (layer64 (Host.dotGeneral dot_S100000x128_S128x64_S100000x64_1_0_0_1_n_n none x w1)
        (nodeIdx ei) (edgeIdx ei) (binv (edgeIdx ei)) w (dinv (nodeIdx ei) (edgeIdx ei) w) b1)
      w2)
    (nodeIdx ei) (edgeIdx ei) (binv (edgeIdx ei)) w (dinv (nodeIdx ei) (edgeIdx ei) w) b2

set_option maxHeartbeats 4000000 in
/-- The run's result term is that composition. -/
theorem res_eq (m : (ℓ : Loc nD τ sig) → Buf (Elt F) ℓ) (c : Dev nD) :
    ValueP.res_main_v133 m c = whole (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) (m ((c.tc : Thread nD τ).loc main_arg7)) := by
  unfold ValueP.res_main_v133
  rfl

end Cert.ReferenceIdeal.RefVal

end
-- ==== Proof.Bridge.lean ====
/-
  The kernel's function and the reference's function are one function on extended reals.

  They differ in three ways. (1) The kernel keeps features in a narrower float format between stages; on extended reals a
  change of format is the identity. (2) The kernel's matrix products are the textbook sums `∑ k, x (p, k) · w (k, q)`,
  and so is the host's general dot product with one contracted axis. (3) Where the reference scales hyperedge `h`'s
  aggregated row by the reciprocal count `binv h` and then by the weight `w h`, the kernel scales it once by the
  product `binv h · w h`: `e · (a · b) = (e · a) · b`, associativity of multiplication, which holds for all extended
  reals, infinite ones included — no finiteness of the inputs is used.
-/
import proofs.«100304_j541165879466_2_alg».proof.Proof.KernelValue
import proofs.«100304_j541165879466_2_alg».proof.Proof.RefValue

set_option maxRecDepth 16384

noncomputable section

namespace Cert.Bridge

open Idealize.ShloMosaic Idealize.ShloMosaic.TcCoe Idealize.SL.Sem
open MatProd

/-- Scaling by a broadcast product is scaling twice: multiplication of extended reals is associative. -/
theorem scale_split {s s' t : Shape} {φ : FTy} {dims : Fin s.rank → Fin s'.rank} {dims' : Fin s'.rank → Fin t.rank}
    (h : s.BroadcastsInDim s' dims) (h' : s'.BroadcastsInDim t dims') (E : FVec Ideal t φ) (a b : FVec Ideal s φ) :
    mulf E (broadcastInDim t dims' h' (broadcastInDim s' dims h (mulf a b)))
      = mulf (mulf E (broadcastInDim t dims' h' (broadcastInDim s' dims h a))) (broadcastInDim t dims' h' (broadcastInDim s' dims h b)) := by
  funext i
  exact (mul_assoc _ _ _).symm

/-- Widening the float format is the identity on extended reals. -/
theorem extf_ideal {s : Shape} {φ : FTy} (ψ : FTy) (x : FVec Ideal s φ) (h : φ.bits < ψ.bits) : extf ψ x h = x := rfl
/-- Narrowing the float format is the identity on extended reals. -/
theorem truncf_ideal {s : Shape} {φ : FTy} (ψ : FTy) (x : FVec Ideal s φ) (h : ψ.bits < φ.bits) : truncf ψ x h = x := rfl

/-! ## The layers -/

theorem layer64_eq (xw : Cert.KernelIdeal.S100000x64.Idx → EReal) (n e : (⟨Cert.KernelIdeal.S1600000, .i32⟩ : BufTy).Contents (Elt Ideal))
    (w : Cert.KernelIdeal.S200000.Idx → EReal) (dv : Cert.KernelIdeal.S100000.Idx → EReal) (b : Cert.KernelIdeal.S64.Idx → EReal) :
    Cert.KernelIdeal.HostVal.layer64 (F := Ideal) xw n e (Cert.KernelIdeal.HostVal.hscale e w) dv b
      = Cert.ReferenceIdeal.RefVal.layer64 (F := Ideal) xw n e (Cert.ReferenceIdeal.RefVal.binv e) w dv b := by
  unfold Cert.KernelIdeal.HostVal.layer64 Cert.KernelIdeal.HostVal.hscale
  rw [scale_split]
  simp only [extf_ideal, truncf_ideal]
  rfl

theorem layer128_eq (xw : Cert.KernelIdeal.S100000x128.Idx → EReal) (n e : (⟨Cert.KernelIdeal.S1600000, .i32⟩ : BufTy).Contents (Elt Ideal))
    (w : Cert.KernelIdeal.S200000.Idx → EReal) (dv : Cert.KernelIdeal.S100000.Idx → EReal) (b : Cert.KernelIdeal.S128.Idx → EReal) :
    Cert.KernelIdeal.HostVal.layer128 (F := Ideal) xw n e (Cert.KernelIdeal.HostVal.hscale e w) dv b
      = Cert.ReferenceIdeal.RefVal.layer128 (F := Ideal) xw n e (Cert.ReferenceIdeal.RefVal.binv e) w dv b := by
  unfold Cert.KernelIdeal.HostVal.layer128 Cert.KernelIdeal.HostVal.hscale
  rw [scale_split]
  simp only [extf_ideal, truncf_ideal]
  rfl

/-! ## The matrix products -/

theorem plainR0 : PlainDot.IsPlain (P := 100000) (K := 128) (Q := 64) Cert.ReferenceIdeal.dot_S100000x128_S128x64_S100000x64_1_0_0_1_n_n :=
  ⟨rfl, rfl, rfl, rfl, rfl, rfl⟩
theorem plainR1 : PlainDot.IsPlain (P := 100000) (K := 64) (Q := 128) Cert.ReferenceIdeal.dot_S100000x64_S64x128_S100000x128_1_0_0_1_n_n :=
  ⟨rfl, rfl, rfl, rfl, rfl, rfl⟩

theorem dot0_eq (x : Cert.KernelIdeal.S100000x128.Idx → EReal) (w1 : Cert.KernelIdeal.S128x64.Idx → EReal) :
    matProd (P := 100000) (K := 128) (Q := 64) x w1
      = Host.dotGeneral (F := Ideal) (φ₁ := .f32) (φ₂ := .f32) Cert.ReferenceIdeal.dot_S100000x128_S128x64_S100000x64_1_0_0_1_n_n none x w1 :=
  (dotGeneral_eq plainR0 (φ₁ := .f32) (φ₂ := .f32) .single x w1).symm
theorem dot1_eq (x : Cert.KernelIdeal.S100000x64.Idx → EReal) (w2 : Cert.KernelIdeal.S64x128.Idx → EReal) :
    matProd (P := 100000) (K := 64) (Q := 128) x w2
      = Host.dotGeneral (F := Ideal) (φ₁ := .f32) (φ₂ := .f32) Cert.ReferenceIdeal.dot_S100000x64_S64x128_S100000x128_1_0_0_1_n_n none x w2 :=
  (dotGeneral_eq plainR1 (φ₁ := .f32) (φ₂ := .f32) .single x w2).symm

/-! ## The whole -/

theorem whole_eq (x : Cert.KernelIdeal.S100000x128.Idx → EReal) (ei : (⟨Cert.KernelIdeal.S2x1600000, .i32⟩ : BufTy).Contents (Elt Ideal))
    (w : Cert.KernelIdeal.S200000.Idx → EReal) (w1 : Cert.KernelIdeal.S128x64.Idx → EReal) (b1 : Cert.KernelIdeal.S64.Idx → EReal)
    (w2 : Cert.KernelIdeal.S64x128.Idx → EReal) (b2 : Cert.KernelIdeal.S128.Idx → EReal) :
    Cert.KernelIdeal.KVal.whole x ei w w1 b1 w2 b2 = Cert.ReferenceIdeal.RefVal.whole (F := Ideal) x ei w w1 b1 w2 b2 := by
  unfold Cert.KernelIdeal.KVal.whole
  rw [layer128_eq, layer64_eq, dot0_eq, dot1_eq]
  rfl

end Cert.Bridge

end
-- ==== Proof.lean ====
/-
  A two-layer hypergraph convolution: the kernel computes each layer's dense product `features · W` in a pipelined region,
  ten row blocks at a time, and everything else — the two normalisations of the incidence list, the gathers, the
  segment sums, the scalings, the bias and the clamp — in host operations, as the reference does.

  At the ideal instance both programs end with one and the same function of the arguments. The kernel's side: its run
  ends with the result buffer at the fold of its eleven segments over the launch memory (Proof/KernelRun.lean); each
  region's output array is the whole matrix product of the arrays it finds, because row `r` of a product reads only row
  `r` of the left operand and the ten row blocks tile the output (Proof/Regions.lean); the host stretches are read one
  buffer at a time (Proof/HostStages.lean) and composed (Proof/KernelValue.lean). The reference's side: its run's
  result term is the same composition with the host's general dot product for the matrix products
  (Proof/RefRun.lean, Proof/RefValue.lean). The two agree (Proof/Bridge.lean): format changes are the identity, both
  spellings of the product are the textbook sum, and scaling a row by `binv · w` is scaling it by `binv` and then by `w`
  — associativity of multiplication, valid on all extended reals, so the finiteness of the inputs is never used.
  The idealization rewrote nothing, so the `preserves` claim is `True`.
-/
import proofs.«100304_j541165879466_2_alg».proof.Defs
import proofs.«100304_j541165879466_2_alg».proof.Proof.Gen.Kernel
import proofs.«100304_j541165879466_2_alg».proof.Proof.Gen.Kernel.Skeleton
import proofs.«100304_j541165879466_2_alg».proof.Proof.Gen.Kernel.Launch
import proofs.«100304_j541165879466_2_alg».proof.Proof.Gen.Kernel.Points
import proofs.«100304_j541165879466_2_alg».proof.Proof.Gen.Kernel.Frame
import proofs.«100304_j541165879466_2_alg».proof.Proof.Gen.KernelIdeal
import proofs.«100304_j541165879466_2_alg».proof.Proof.Gen.KernelIdeal.Skeleton
import proofs.«100304_j541165879466_2_alg».proof.Proof.Gen.KernelIdeal.Launch
import proofs.«100304_j541165879466_2_alg».proof.Proof.Gen.KernelIdeal.Points
import proofs.«100304_j541165879466_2_alg».proof.Proof.Gen.KernelIdeal.Frame
import proofs.«100304_j541165879466_2_alg».proof.Proof.Gen.ReferenceIdeal
import proofs.«100304_j541165879466_2_alg».proof.Proof.Gen.Pre_finite_inputs
import proofs.«100304_j541165879466_2_alg».proof.Proof.KernelRun
import proofs.«100304_j541165879466_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end, from memories agreeing on the arguments, with the result at the kernel's function of the arguments. -/
theorem algebraic : Cert.algebraic_KernelIdeal_ReferenceIdeal := by
  intro m ρ m' ρ' _ hagree
  refine ⟨fun c => Cert.KernelIdeal.KVal.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KVal.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, -, h4, h5, h6, h7⟩ := hagree c
    rw [Cert.ReferenceIdeal.RefVal.res_eq, h0, h1, h2, h4, h5, h6, h7]
    exact (Cert.Bridge.whole_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
